-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x4096x2048 : Shape := ⟨3, ![8, 4096, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8x1024x2048 .f32) (main_arg1 : FVec F S8x4096x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  main_v8
-- ==== Kernel.lean ====
abbrev S8x1024x2048 : Shape := ⟨3, ![8, 1024, 2048]⟩
abbrev S8x4096x2048 : Shape := ⟨3, ![8, 4096, 2048]⟩
abbrev S_ : Shape := ⟨0, ![]⟩
abbrev S8x1024 : Shape := ⟨2, ![8, 1024]⟩
abbrev S8x1024x1 : Shape := ⟨3, ![8, 1024, 1]⟩
abbrev S8x1024x4096 : Shape := ⟨3, ![8, 1024, 4096]⟩
abbrev S1x256x2048 : Shape := ⟨3, ![1, 256, 2048]⟩
abbrev S1x1024x2048 : Shape := ⟨3, ![1, 1024, 2048]⟩
abbrev S1x256x1 : Shape := ⟨3, ![1, 256, 1]⟩
abbrev S1x256x1024 : Shape := ⟨3, ![1, 256, 1024]⟩
abbrev S1x1024 : Shape := ⟨2, ![1, 1024]⟩
abbrev S1024x2048 : Shape := ⟨2, ![1024, 2048]⟩
abbrev S1024 : Shape := ⟨1, ![1024]⟩
abbrev S1024x1 : Shape := ⟨2, ![1024, 1]⟩
abbrev S256x2048 : Shape := ⟨2, ![256, 2048]⟩
abbrev S256x1 : Shape := ⟨2, ![256, 1]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x1024x2048, .f32⟩
  | .hbm, ⟨1, _⟩ => ⟨S8x4096x2048, .f32⟩
  | .hbm, ⟨2, _⟩ => ⟨S8x1024x2048, .f32⟩
  | .hbm, ⟨3, _⟩ => ⟨S_, .f32⟩
  | .hbm, ⟨4, _⟩ => ⟨S8x1024, .f32⟩
  | .hbm, ⟨5, _⟩ => ⟨S8x1024x1, .f32⟩
  | .hbm, ⟨6, _⟩ => ⟨S8x1024x4096, .f32⟩
  | .local _ .vmem, ⟨0, _⟩ => ⟨S1x256x2048, .f32⟩
  | .local _ .vmem, ⟨1, _⟩ => ⟨S1x256x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x256x1, .f32⟩
  | .local _ .vmem, ⟨5, _⟩ => ⟨S1x256x1, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  reducesTo_S8x1024x2048_S8x1024_d2 : S8x1024x2048.ReducesTo [2] S8x1024
  h_S_ : 0 < S_.numel
  bcast_S8x1024_S8x1024x1_0_1 : S8x1024.BroadcastsInDim S8x1024x1 (![0, 1] : Fin 2 → Fin S8x1024x1.rank)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  bitsLt_bf16_f32 : FTy.bits .bf16 < FTy.bits .f32
  broadcasts_S256x1_S256x1024 : S256x1.Broadcasts S256x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .f32 = 32 ∨ (Rect.block (s := S8x1024x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .f32 = 32 ∨ (Rect.block (s := S8x4096x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x1024x1.size a
  hwx0_2 : ∀ i : grid0.Coords, EltTy.bits .f32 = 32 ∨ (Rect.block (s := S8x1024x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x1024x4096.size a
  hwx0_3 : ∀ i : grid0.Coords, EltTy.bits .f32 = 32 ∨ (Rect.block (s := S8x1024x4096) S1x256x1024.size (cc0_transform_3 i) (hinb0_3 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x4096x2048 : Shape := ⟨3, ![8, 4096, 2048]⟩
abbrev S_ : Shape := ⟨0, ![]⟩
abbrev S8x1024 : Shape := ⟨2, ![8, 1024]⟩
abbrev S8x4096 : Shape := ⟨2, ![8, 4096]⟩
abbrev S8x1024x4096 : Shape := ⟨3, ![8, 1024, 4096]⟩
abbrev S8x1024x1 : Shape := ⟨3, ![8, 1024, 1]⟩
abbrev S8x1x4096 : Shape := ⟨3, ![8, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x4096x2048, .f32⟩
  | .hbm, ⟨2, _⟩ => ⟨S8x1024x2048, .f32⟩
  | .hbm, ⟨3, _⟩ => ⟨S_, .f32⟩
  | .hbm, ⟨4, _⟩ => ⟨S8x1024, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x1024x4096, .f32⟩
  | .hbm, ⟨9, _⟩ => ⟨S8x1024x1, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S8x1024x4096, .f32⟩
  | .hbm, ⟨15, _⟩ => ⟨S8x1x4096, .f32⟩
  | .hbm, ⟨16, _⟩ => ⟨S8x1024x4096, .f32⟩
  | .hbm, ⟨17, _⟩ => ⟨S8x1024x4096, .f32⟩
  | .hbm, ⟨18, _⟩ => ⟨S_, .f32⟩
  | .hbm, ⟨19, _⟩ => ⟨S8x1024x4096, .f32⟩
  | .hbm, ⟨20, _⟩ => ⟨S8x1024x4096, .f32⟩
  | .hbm, ⟨21, _⟩ => ⟨S8x1024x4096, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8x1024x2048_S8x1024_d2 : S8x1024x2048.ReducesTo [2] S8x1024
  h_S_ : 0 < S_.numel
  reducesTo_S8x4096x2048_S8x4096_d2 : S8x4096x2048.ReducesTo [2] S8x4096
  bcast_S8x1024_S8x1024x1_0_1 : S8x1024.BroadcastsInDim S8x1024x1 (![0, 1] : Fin 2 → Fin S8x1024x1.rank)
  bcast_S_S8x1024x4096 : S_.BroadcastsInDim S8x1024x4096 (![] : Fin 0 → Fin S8x1024x4096.rank)
  bcast_S8x1024x1_S8x1024x4096_0_1_2 : S8x1024x1.BroadcastsInDim S8x1024x4096 (![0, 1, 2] : Fin 3 → Fin S8x1024x4096.rank)
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  dot_S8x1024x2048_S8x4096x2048_S8x1024x4096_2_2_1_1_0_0_wf : DotDims.WF S8x1024x2048 S8x4096x2048 S8x1024x4096 [2] [2] [1] [1] [0] [0]

variable [Facts₀]

def dot_S8x1024x2048_S8x4096x2048_S8x1024x4096_2_2_1_1_0_0 : DotDims S8x1024x2048 S8x4096x2048 S8x1024x4096 where
  lhsContracting := [2]
  rhsContracting := [2]
  lhsNonContracting := [1]
  rhsNonContracting := [1]
  lhsBatch := [0]
  rhsBatch := [0]
  wf := dot_S8x1024x2048_S8x4096x2048_S8x1024x4096_2_2_1_1_0_0_wf

class Facts : Prop extends Facts₀ where

variable [Facts]
-- ==== Proof.Spec.lean ====
/-
  The table of distances, stated once, over the extended reals.

  For a layer `l`, a row `n` of `x` and a centroid `q` of that layer, the entry is

      sqrt (max (‖x_{l,n}‖² − 2 · ⟨x_{l,n}, c_{l,q}⟩ + ‖c_{l,q}‖², ε))

  where the two squared lengths and the inner product are plain finite sums over the 2048 features,
  `2` and `ε` are the two float literals both programs spell (they are never evaluated: the same
  word stands on both sides), the additions are grouped as written, `(a − b) + c`, and `sqrt` is the
  extended reals' square root. The statement is meaningful for every extended-real input, infinite
  entries included: a finite sum of extended reals does not depend on the order of its terms, and the
  one identity stated here, `0 + s = s`, holds for every extended real `s`.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The rows: 8 layers of 1024 rows of 2048 features. -/
abbrev SX : Shape := ⟨3, ![8, 1024, 2048]⟩
/-- The centroids: 8 layers of 4096 centroids of 2048 features. -/
abbrev SC : Shape := ⟨3, ![8, 4096, 2048]⟩
/-- The table: per layer, one entry per row and centroid. -/
abbrev SO : Shape := ⟨3, ![8, 1024, 4096]⟩

/-- The squared length of row `(l, n)`. -/
def rowSq (x : SX.Idx → EReal) (l : Fin 8) (n : Fin 1024) : EReal :=
  ∑ k : Fin 2048, x (ix3 l n k) * x (ix3 l n k)

/-- The squared length of centroid `(l, q)`. -/
def cenSq (cen : SC.Idx → EReal) (l : Fin 8) (q : Fin 4096) : EReal :=
  ∑ k : Fin 2048, cen (ix3 l q k) * cen (ix3 l q k)

/-- The inner product of row `(l, n)` with centroid `(l, q)`. -/
def inner (x : SX.Idx → EReal) (cen : SC.Idx → EReal) (l : Fin 8) (n : Fin 1024) (q : Fin 4096) : EReal :=
  ∑ k : Fin 2048, x (ix3 l n k) * cen (ix3 l q k)

/-- The literal `2.0`, as the float word both programs carry. -/
def two : EReal := Ideal.ofBits .f32 0x40000000#32
/-- The floor `ε` under the square root, as the float word both programs carry. -/
def eps : EReal := Ideal.ofBits .f32 0x2B8CBCCC#32

/-- One entry of the table from the three sums. -/
def combine (a b c : EReal) : EReal := Ideal.sqrt (max (a - two * b + c) eps)

/-- The entry for layer `l`, row `n`, centroid `q`. -/
def entry (x : SX.Idx → EReal) (cen : SC.Idx → EReal) (l : Fin 8) (n : Fin 1024) (q : Fin 4096) : EReal :=
  combine (rowSq x l n) (inner x cen l n q) (cenSq cen l q)

/-- The whole table. -/
def dist (x : SX.Idx → EReal) (cen : SC.Idx → EReal) : SO.Idx → EReal :=
  fun i => entry x cen (i 0) (i 1) (i 2)

theorem dist_apply (x : SX.Idx → EReal) (cen : SC.Idx → EReal) (l : Fin 8) (n : Fin 1024) (q : Fin 4096) :
    dist x cen (ix3 l n q) = entry x cen l n q := rfl

/-- A sum started from the float zero is the sum. -/
theorem zero_word_add (s : EReal) : Ideal.ofBits .f32 0x00000000#32 + s = s := by
  rw [Ideal.ofBits_zero_f32, zero_add]

end Cert.Dist

end
-- ==== Proof.RefDist.lean ====
/-
  The reference computes the table of distances.

  Read one entry at a time, the reference's last value at layer `l`, row `n`, centroid `q` is the square
  root of the floored combination of three sums over the features: the row's squared length (summed from
  the float zero), the centroid's squared length (likewise), and the inner product the batched
  contraction gives — every broadcast in between only forgets or repeats a coordinate. A sum started from
  the float zero is the sum, and that is all that separates the reference's term from the table's entry.
-/
import proofs.«114348_j83846351552792_2_alg».proof.Proof.Gen.ReferenceIdeal.Read
import proofs.«114348_j83846351552792_2_alg».proof.Proof.Spec

noncomputable section

namespace Cert.ReferenceIdeal.RefDist

open Cert.ReferenceIdeal Cert.ReferenceIdeal.Read Idealize.ShloMosaic Idealize.ShloMosaic.ValueIdx

/-- Through the two broadcasts and the row sum, entry `(l, n, q)` reads row `(l, n)` at feature `k`. -/
theorem row_index (l : Fin 8) (n : Fin 1024) (q : Fin 4096) (k : Fin 2048) :
    idx_main_v1 (idx_main_v5 (idx_main_v8 (ix3 l n q))) k = ix3 l n k :=
  funext fun a => Fin.ext (by match a with | ⟨0, _⟩ => rfl | ⟨1, _⟩ => rfl | ⟨2, _⟩ => rfl)

/-- Through the two broadcasts and the centroid sum, entry `(l, n, q)` reads centroid `(l, q)` at feature `k`. -/
theorem cen_index (l : Fin 8) (n : Fin 1024) (q : Fin 4096) (k : Fin 2048) :
    idx_main_v3 (idx_main_v10 (idx_main_v11 (ix3 l n q))) k = ix3 l q k :=
  funext fun a => Fin.ext (by match a with | ⟨0, _⟩ => rfl | ⟨1, _⟩ => rfl | ⟨2, _⟩ => rfl)

/-- The contraction's left factor at entry `(l, n, q)` and feature `k` is row `(l, n)` there. -/
theorem dot_left_index (l : Fin 8) (n : Fin 1024) (q : Fin 4096) (k : Fin 2048) :
    lidx_main_v4 (ix3 l n q) k = ix3 l n k :=
  funext fun a => Fin.ext (by match a with | ⟨0, _⟩ => rfl | ⟨1, _⟩ => rfl | ⟨2, _⟩ => rfl)

/-- The contraction's right factor at entry `(l, n, q)` and feature `k` is centroid `(l, q)` there. -/
theorem dot_right_index (l : Fin 8) (n : Fin 1024) (q : Fin 4096) (k : Fin 2048) :
    ridx_main_v4 (ix3 l n q) k = ix3 l q k :=
  funext fun a => Fin.ext (by match a with | ⟨0, _⟩ => rfl | ⟨1, _⟩ => rfl | ⟨2, _⟩ => rfl)

/-- The reference's result is the table of distances of its two arguments. -/
theorem result_is_dist (x : Cert.Dist.SX.Idx → EReal) (cen : Cert.Dist.SC.Idx → EReal) :
    val_main_v15 (F := Ideal) x cen = Cert.Dist.dist x cen := by
  funext i
  obtain ⟨l, n, q, rfl⟩ : ∃ (l : Fin 8) (n : Fin 1024) (q : Fin 4096), i = ix3 l n q := ⟨i 0, i 1, i 2, eq_ix3 i⟩
  rw [Cert.Dist.dist_apply, val_main_v15_apply, val_main_v14_apply, val_main_v12_apply, val_main_v13_apply,
    val_main_cst_2_apply, val_main_v9_apply, val_main_v11_apply, val_main_v10_apply, val_main_v3_apply,
    val_main_v8_apply, val_main_v5_apply, val_main_v1_apply, val_main_v7_apply, val_main_v6_apply,
    val_main_cst_1_apply, val_main_v4_apply]
  simp only [val_main_v0_apply, val_main_v2_apply, val_main_cst_apply, val_main_cst_0_apply, row_index, cen_index,
    dot_left_index, dot_right_index, Ideal.hostUnary_sqrt_def, Ideal.maximumf_def, Ideal.addf_def, Ideal.subf_def,
    Ideal.mulf_def, Ideal.ofBits_def, Cert.Dist.zero_word_add, Cert.Dist.entry, Cert.Dist.combine, Cert.Dist.rowSq,
    Cert.Dist.cenSq, Cert.Dist.inner, Cert.Dist.two, Cert.Dist.eps]

end Cert.ReferenceIdeal.RefDist

end
-- ==== Proof.Blocks.lean ====
/-
  Where the blocks sit, and what they read.

  The grid has 8 × 4 × 4 points: point `t` works on layer `t / 16`, on the tile of 1024 centroids
  number `(t / 4) % 4`, and on the tile of 256 rows number `t % 4` (the row tile moves fastest). So entry
  `(p, k)` of the block of rows at `t` is row `256 · (t % 4) + p` of the layer, entry `(q, k)` of the block
  of centroids is centroid `1024 · ((t / 4) % 4) + q` of the layer, and entry `p` of the one-column block is
  the precomputed squared length of that same row. The precomputed column itself is, at row `(l, n)`,
  the sum of the squares of the row's features started from the float zero — that is, the row's squared
  length.
-/
import proofs.«114348_j83846351552792_2_alg».proof.Proof.Gen.KernelIdeal.Frame
import proofs.«114348_j83846351552792_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- The block index of each window at grid point `t`, axis by axis (decided over the 128 points). -/
theorem positions : ∀ t : Fin cfg0.N,
    win0_0.index t (0 : Fin 3) = t.val / 16 ∧ win0_0.index t (1 : Fin 3) = t.val % 4 ∧ win0_0.index t (2 : Fin 3) = 0
    ∧ win0_1.index t (0 : Fin 3) = t.val / 16 ∧ win0_1.index t (1 : Fin 3) = t.val / 4 % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val % 4 ∧ win0_3.index t (2 : Fin 3) = t.val / 4 % 4 :=
  (by decide +kernel : ∀ t : Fin grid0.N, _)

/-- Entry `(p, k)` of the block of rows at point `t` is feature `k` of row `256 · (t % 4) + p` of layer `t / 16`. -/
theorem row_block_apply (c : Dev nD) (t : Fin cfg0.N) (p : Fin 256) (k : Fin 2048) (l : Fin 8) (n : Fin 1024)
    (hl : l.val = t.val / 16) (hn : n.val = 256 * (t.val % 4) + p.val) :
    iblk m c 0 t (ix3 (0 : Fin 1) p k) = m ((c : Thread nD τ).loc main_arg0) (ix3 l n k) := by
  rw [← V_main_arg0 m c]
  unfold iblk
  rw [View.read_apply]
  show V m c main_arg0 (((cfg0.win 0).blk t).view.emb (ix3 (0 : Fin 1) p k)) = V m c main_arg0 (ix3 l n k)
  refine congrArg (V m c main_arg0) (funext fun a => Fin.ext ?_)
  obtain ⟨e0, e1, e2, -⟩ := positions t
  match a with
  | ⟨0, _⟩ => show win0_0.index t (0 : Fin 3) * 1 + 1 * 0 = l.val; omega
  | ⟨1, _⟩ => show win0_0.index t (1 : Fin 3) * 256 + 1 * p.val = n.val; omega
  | ⟨2, _⟩ => show win0_0.index t (2 : Fin 3) * 2048 + 1 * k.val = k.val; omega

/-- Entry `(q, k)` of the block of centroids at point `t` is feature `k` of centroid `1024 · ((t / 4) % 4) + q`
    of layer `t / 16`. -/
theorem cen_block_apply (c : Dev nD) (t : Fin cfg0.N) (q : Fin 1024) (k : Fin 2048) (l : Fin 8) (j : Fin 4096)
    (hl : l.val = t.val / 16) (hj : j.val = 1024 * (t.val / 4 % 4) + q.val) :
    iblk m c 1 t (ix3 (0 : Fin 1) q k) = m ((c : Thread nD τ).loc main_arg1) (ix3 l j k) := by
  rw [← V_main_arg1 m c]
  unfold iblk
  rw [View.read_apply]
  show V m c main_arg1 (((cfg0.win 1).blk t).view.emb (ix3 (0 : Fin 1) q k)) = V m c main_arg1 (ix3 l j k)
  refine congrArg (V m c main_arg1) (funext fun a => Fin.ext ?_)
  obtain ⟨-, -, -, e0, e1, e2, -⟩ := positions t
  match a with
  | ⟨0, _⟩ => show win0_1.index t (0 : Fin 3) * 1 + 1 * 0 = l.val; omega
  | ⟨1, _⟩ => show win0_1.index t (1 : Fin 3) * 1024 + 1 * q.val = j.val; omega
  | ⟨2, _⟩ => show win0_1.index t (2 : Fin 3) * 2048 + 1 * k.val = k.val; omega

/-- Entry `p` of the one-column block at point `t` is the precomputed column at row `256 · (t % 4) + p` of
    layer `t / 16`. -/
theorem column_block_apply (c : Dev nD) (t : Fin cfg0.N) (p : Fin 256) (l : Fin 8) (n : Fin 1024)
    (hl : l.val = t.val / 16) (hn : n.val = 256 * (t.val % 4) + p.val) :
    iblk m c 2 t (ix3 (0 : Fin 1) p (0 : Fin 1)) = V m c main_v2 (ix3 l n (0 : Fin 1)) := by
  unfold iblk
  rw [View.read_apply]
  show V m c main_v2 (((cfg0.win 2).blk t).view.emb (ix3 (0 : Fin 1) p (0 : Fin 1))) = V m c main_v2 (ix3 l n (0 : Fin 1))
  refine congrArg (V m c main_v2) (funext fun a => Fin.ext ?_)
  obtain ⟨-, -, -, -, -, -, e0, e1, e2, -⟩ := positions t
  match a with
  | ⟨0, _⟩ => show win0_2.index t (0 : Fin 3) * 1 + 1 * 0 = l.val; omega
  | ⟨1, _⟩ => show win0_2.index t (1 : Fin 3) * 256 + 1 * p.val = n.val; omega
  | ⟨2, _⟩ => show win0_2.index t (2 : Fin 3) * 1 + 1 * 0 = 0; omega

end Cert.KernelIdeal.Blocks

/-! ## The precomputed column, over the extended reals -/

namespace Cert.KernelIdeal.Blocks

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The column the host computes before the launch: the rows' squares summed along the features from the
    float zero, re-laid as a column. -/
theorem column_eq (c : Dev nD) :
    (V m c main_v2 : S8x1024x1.Idx → EReal)
      = broadcastInDim S8x1024x1 ![0, 1] bcast_S8x1024_S8x1024x1_0_1
          (Host.reduceAdd (F := Ideal) (mulf (m ((c : Thread nD τ).loc main_arg0)) (m ((c : Thread nD τ).loc main_arg0)))
            (constant (F := Ideal) S_ .f32 0x00000000#32) reducesTo_S8x1024x2048_S8x1024_d2 h_S_) := by
  dsimp only [Gen.V, Gen.hostOps0]; after_results

/-- The rows' squares summed along the features from the float zero and re-laid as a column: at row
    `(l, n)`, the row's squared length. -/
theorem row_sums_apply (x : S8x1024x2048.Idx → EReal) (l : Fin 8) (n : Fin 1024) :
    broadcastInDim S8x1024x1 ![0, 1] bcast_S8x1024_S8x1024x1_0_1
        (Host.reduceAdd (F := Ideal) (mulf (F := Ideal) (φ := .f32) x x)
          (constant (F := Ideal) S_ .f32 0x00000000#32) reducesTo_S8x1024x2048_S8x1024_d2 h_S_) (ix3 l n (0 : Fin 1))
      = Cert.Dist.rowSq x l n := by
  refine (broadcastInDim_apply _ bcast_S8x1024_S8x1024x1_0_1 _ (ix3 l n (0 : Fin 1)) (ix2 l n) (fun a => match a with
    | ⟨0, _⟩ => by show l.val = if (8 : Nat) = 1 then 0 else l.val; rw [if_neg (by decide)]
    | ⟨1, _⟩ => by show n.val = if (1024 : Nat) = 1 then 0 else n.val; rw [if_neg (by decide)])).trans ?_
  simp only [Host.reduceAdd, Ideal.hostReduceAdd_def]
  rw [Ideal.hostReduceAdd_single reducesTo_S8x1024x2048_S8x1024_d2 (by decide)]
  refine (Cert.Dist.zero_word_add _).trans ?_
  unfold Cert.Dist.rowSq
  refine Finset.sum_congr rfl fun k _ => ?_
  have e : (show S8x1024x2048.Reduces [2] S8x1024 by decide).lift (ix2 l n) k = ix3 l n k :=
    funext fun a => Fin.ext (by match a with | ⟨0, _⟩ => rfl | ⟨1, _⟩ => rfl | ⟨2, _⟩ => rfl)
  exact congrArg (fun i => x i * x i) e

/-- At row `(l, n)` the precomputed column holds the row's squared length. -/
theorem column_apply (c : Dev nD) (l : Fin 8) (n : Fin 1024) :
    V m c main_v2 (ix3 l n (0 : Fin 1)) = Cert.Dist.rowSq (m ((c : Thread nD τ).loc main_arg0)) l n := by
  exact (congrFun (column_eq m c) _).trans (row_sums_apply _ l n)

end Cert.KernelIdeal.Blocks

end
-- ==== Proof.Pieces.lean ====
/-
  What one grid point leaves behind, as values of what it found.

  A point of the grid either opens a new block of centroids or continues with the block of the point
  before. In the first case the body stores the row of squared centroid lengths into the carried
  scratch row, reads that row straight back, and stores the output block computed with it. In the second
  the scratch row is left alone and the output block is computed with whatever the scratch row held on
  entry. Each store covers its whole buffer, and each load reads its whole buffer, so what a buffer holds
  afterwards is exactly the stored value, as a function of the three input blocks (and, in the second
  case, of the scratch row on entry). These hold for any float semantics.
-/
import proofs.«114348_j83846351552792_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The origin of a rank-2 buffer. -/
theorem origin2 : (![0, 0] : Fin 2 → Nat) = fun _ => 0 := funext fun a => by fin_cases a <;> rfl
/-- The origin of a rank-3 buffer. -/
theorem origin3 : (![0, 0, 0] : Fin 3 → Nat) = fun _ => 0 := funext fun a => by fin_cases a <;> rfl

/-- A point that opens a new block of centroids leaves, in the scratch row, the row of squared lengths
    of that block. -/
theorem scratch_opened (c : Dev nD) (i : grid0.Coords) (arg3 : Memref sig .tc .vmem S1x256x2048 .f32) (harg3 : arg3.IsWhole) (arg4 : Memref sig .tc .vmem S1x1024x2048 .f32) (harg4 : arg4.IsWhole) (arg5 : Memref sig .tc .vmem S1x256x1 .f32) (harg5 : arg5.IsWhole) (arg6 : Memref sig .tc .vmem S1x256x1024 .f32) (harg6 : arg6.IsWhole) (arg7 : Memref sig .tc .vmem S1x1024 .f32) (harg7 : arg7.IsWhole) (hc0 : cond0_0 i)
    (x0 : Vec F S1x256x2048 .f32) (x1 : Vec F S1x1024x2048 .f32) (x2 : Vec F S1x256x1 .f32) :
    sout0_A_0 c i arg3 harg3 arg4 harg4 arg5 harg5 arg6 harg6 arg7 harg7 hc0 x0 x1 x2 = k0_pay1 x1 := by
  unfold sout0_A_0
  rw [View.read_writes_eq_canon _ _ _ (scover0_A_0 c i arg3 harg3 arg4 harg4 arg5 harg5 arg6 harg6 arg7 harg7 hc0 x0 x1 x2)]
  unfold kernelRun0_A
  dsimp only
  sl_unfold_words
  rw [View.canon_unit_zero origin2]
  simp only [View.readAt_eq_ld, harg4.read_unread, View.ld_unit_zero (S := S1x1024x2048) origin3]

/-- … and, in the output block, the body's value computed with that fresh row. -/
theorem out_opened (c : Dev nD) (i : grid0.Coords) (arg3 : Memref sig .tc .vmem S1x256x2048 .f32) (harg3 : arg3.IsWhole) (arg4 : Memref sig .tc .vmem S1x1024x2048 .f32) (harg4 : arg4.IsWhole) (arg5 : Memref sig .tc .vmem S1x256x1 .f32) (harg5 : arg5.IsWhole) (arg6 : Memref sig .tc .vmem S1x256x1024 .f32) (harg6 : arg6.IsWhole) (arg7 : Memref sig .tc .vmem S1x1024 .f32) (harg7 : arg7.IsWhole) (hc0 : cond0_0 i)
    (x0 : Vec F S1x256x2048 .f32) (x1 : Vec F S1x1024x2048 .f32) (x2 : Vec F S1x256x1 .f32) :
    out0_A_3 c i arg3 harg3 arg4 harg4 arg5 harg5 arg6 harg6 arg7 harg7 hc0 x0 x1 x2 = k0_pay2 x0 x1 x2 (k0_pay1 x1) := by
  unfold out0_A_3
  rw [View.read_writes_eq_canon _ _ _ (cover0_A_3 c i arg3 harg3 arg4 harg4 arg5 harg5 arg6 harg6 arg7 harg7 hc0 x0 x1 x2)]
  unfold kernelRun0_A
  dsimp only
  sl_unfold_words
  rw [View.canon_unit_zero origin3, View.readCov_unit_zero (S := S1x1024) _ origin2]
  simp only [View.readAt_eq_ld, harg3.read_unread, harg4.read_unread, harg5.read_unread,
    View.ld_unit_zero (S := S1x256x2048) origin3, View.ld_unit_zero (S := S1x1024x2048) origin3,
    View.ld_unit_zero (S := S1x256x1) origin3]

/-- A point that continues with the same block of centroids leaves, in the output block, the body's
    value computed with the scratch row as it found it. -/
theorem out_continued (c : Dev nD) (i : grid0.Coords) (arg3 : Memref sig .tc .vmem S1x256x2048 .f32) (harg3 : arg3.IsWhole) (arg4 : Memref sig .tc .vmem S1x1024x2048 .f32) (harg4 : arg4.IsWhole) (arg5 : Memref sig .tc .vmem S1x256x1 .f32) (harg5 : arg5.IsWhole) (arg6 : Memref sig .tc .vmem S1x256x1024 .f32) (harg6 : arg6.IsWhole) (arg7 : Memref sig .tc .vmem S1x1024 .f32) (harg7 : arg7.IsWhole) (hc0 : ¬cond0_0 i)
    (x0 : Vec F S1x256x2048 .f32) (x1 : Vec F S1x1024x2048 .f32) (x2 : Vec F S1x256x1 .f32) (xs0 : Vec F S1x1024 .f32) :
    out0_B_3 c i arg3 harg3 arg4 harg4 arg5 harg5 arg6 harg6 arg7 harg7 hc0 x0 x1 x2 xs0 = k0_pay2 x0 x1 x2 xs0 := by
  unfold out0_B_3
  rw [View.read_writes_eq_canon _ _ _ (cover0_B_3 c i arg3 harg3 arg4 harg4 arg5 harg5 arg6 harg6 arg7 harg7 hc0 x0 x1 x2 xs0)]
  unfold kernelRun0_B
  dsimp only
  sl_unfold_words
  rw [View.canon_unit_zero origin3]
  simp only [View.readAt_eq_ld, harg3.read_unread, harg4.read_unread, harg5.read_unread, harg7.read_unread,
    View.ld_unit_zero (S := S1x256x2048) origin3, View.ld_unit_zero (S := S1x1024x2048) origin3,
    View.ld_unit_zero (S := S1x256x1) origin3, View.ld_unit_zero (S := S1x1024) origin2]

end Cert.KernelIdeal.Pieces

end
-- ==== Proof.LibColumn.lean ====
/-
  A column of per-row statistics, in the two layout forms a `keepdims` reduction leaves it in.

  A reduction along the last axis of an `[a, b]` array gives an `[a]` vector; kept as a column it is re-laid as `[a, 1]`, and to
  combine it with the array again it is broadcast back to `[a, b]`. Read at an index: the column at `(i, u)` is the vector at
  `i` whatever the unit coordinate, and the broadcast column at `(p, c)` is the column at `(p, 0)`. Generic in the extents;
  stated at indices built from literal coordinates (`ix1`, `ix2`), the form in which they rewrite.
-/
import Idealize.ShloMosaic.Lib.Pipeline.Value
import Idealize.ShloMosaic.Lib.ValueIdx

namespace Cert.Lib.Column

open Idealize.ShloMosaic Idealize.ShloMosaic.ValueIdx

variable {α : Type}

/-- An `[a]` vector re-laid as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Payload.lean ====
/-
  What the kernel body computes, read one entry at a time over the extended reals.

  The body has two stored values. The first, stored into the carried scratch row when a new block of
  centroids arrives, is the row of the block's squared lengths: entry `q` is the sum over the features
  of the square of centroid `q` of the block. The second, stored into the output block at every point,
  combines three things at entry `(p, q)`: the squared length of row `p`, which arrives precomputed as a
  one-column block; the inner product of row `p` with centroid `q`, which the matrix unit's product
  into a zero accumulator gives as a plain sum over the features (the narrowing of the two operands
  before the product is the identity here); and whatever the scratch row holds at `q`.
-/
import proofs.«114348_j83846351552792_2_alg».proof.Proof.Gen.KernelIdeal.Skeleton
import proofs.«114348_j83846351552792_2_alg».proof.Proof.LibColumn
import proofs.«114348_j83846351552792_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product of a block of rows with a block of centroids -/

/-- The product's dimension record: both operands are contracted along their feature axis. -/
abbrev D := dot_S256x2048_S1024x2048_S256x1024_1_1_0_0_n_n

theorem lhs_row (i : S256x1024.Idx) (k : D.contr.Idx) : (D.lhsIdx i k 0).val = (i 0).val := by
  unfold DotDims.lhsIdx
  rw [dif_neg (show ¬(0 : Fin S256x2048.rank) ∈ D.lhsBatch by decide),
    dif_pos (show (0 : Fin S256x2048.rank) ∈ D.lhsNonContracting by decide)]
  rfl

theorem lhs_feature (i : S256x1024.Idx) (k : D.contr.Idx) : (D.lhsIdx i k 1).val = (k ⟨0, by decide⟩).val :=
  D.lhsIdx_val_of_single rfl i k

theorem rhs_row (i : S256x1024.Idx) (k : D.contr.Idx) : (D.rhsIdx i k 0).val = (i 1).val := by
  unfold DotDims.rhsIdx
  rw [dif_neg (show ¬(0 : Fin S1024x2048.rank) ∈ D.rhsBatch by decide),
    dif_pos (show (0 : Fin S1024x2048.rank) ∈ D.rhsNonContracting by decide)]
  rfl

theorem rhs_feature (i : S256x1024.Idx) (k : D.contr.Idx) : (D.rhsIdx i k 1).val = (k ⟨0, by decide⟩).val :=
  D.rhsIdx_val_of_single rfl i k

/-- The product into the zero accumulator, at `(p, q)`: the sum over the features of row `p` of the
    left block times row `q` of the right block. -/
theorem product_apply (a : FVec Ideal S256x2048 .bf16) (b : FVec Ideal S1024x2048 .bf16) (p : Fin 256) (q : Fin 1024) :
    matmul D none a b (constant (F := Ideal) S256x1024 .f32 0x00000000#32) (ix2 p q)
      = ∑ k : Fin 2048, a (ix2 p k) * b (ix2 q k) := by
  refine (Ideal.matmul_constant_zero_apply D none a b (ix2 p q)).trans ?_
  rw [← Equiv.sum_comp (ValueIdx.contrEquiv1 D 2048 rfl rfl).symm]
  refine Finset.sum_congr rfl fun k _ => ?_
  have hk := ValueIdx.contrEquiv1_symm_val D 2048 rfl rfl k
  have el : D.lhsIdx (ix2 p q) ((ValueIdx.contrEquiv1 D 2048 rfl rfl).symm k) = ix2 p k := funext fun c => Fin.ext (by
    match c with
    | ⟨0, _⟩ => exact lhs_row _ _
    | ⟨1, _⟩ => exact (lhs_feature _ _).trans hk)
  have er : D.rhsIdx (ix2 p q) ((ValueIdx.contrEquiv1 D 2048 rfl rfl).symm k) = ix2 q k := funext fun c => Fin.ext (by
    match c with
    | ⟨0, _⟩ => exact rhs_row _ _
    | ⟨1, _⟩ => exact (rhs_feature _ _).trans hk)
  rw [el, er]

/-! ## The scratch row: the squared lengths of a block of centroids -/

/-- Entry `q` of the stored scratch row is the squared length of centroid `q` of the block. -/
theorem scratch_row_apply (v : FVec Ideal S1x1024x2048 .f32) (q : Fin 1024) :
    k0_pay1 (F := Ideal) v (ix2 (0 : Fin 1) q)
      = ∑ k : Fin 2048, v (ix3 (0 : Fin 1) q k) * v (ix3 (0 : Fin 1) q k) := by
  unfold k0_pay1
  refine (congrFun (shapeCast_self _ _) _).trans ?_
  refine (transpose_ix2_apply _ _ (0 : Fin 1) q).trans ?_
  refine (Cert.Lib.Column.shapeCast_a_a1_apply _ _ q (0 : Fin 1)).trans ?_
  refine (Ideal.multiReduction_add_single _ 0x00000000#32 reduces_S1024x2048_S1024 (.inl rfl) rfl (ix1 q)).trans ?_
  refine Finset.sum_congr rfl fun k _ => ?_
  have e : reduces_S1024x2048_S1024.lift (ix1 q) k = ix2 q k :=
    funext fun c => Fin.ext (by match c with | ⟨0, _⟩ => rfl | ⟨1, _⟩ => rfl)
  have hv : ∀ j : S1024x2048.Idx, j = ix2 q k →
      shapeCast S1024x2048 v shapeCasts_S1x1024x2048_S1024x2048 j = v (ix3 (0 : Fin 1) q k) :=
    fun j hj => hj ▸ shapeCast_1ab_ab_apply v _ q k
  exact congrArg₂ (· * ·) (hv _ e) (hv _ e)

/-! ## The output block -/

/-- Entry `(p, q)` of the stored output block: the combination of the precomputed squared length of
    row `p`, the inner product of row `p` with centroid `q`, and the scratch row at `q`. -/
theorem out_block_apply (x0 : FVec Ideal S1x256x2048 .f32) (x1 : FVec Ideal S1x1024x2048 .f32) (x2 : FVec Ideal S1x256x1 .f32)
    (s : FVec Ideal S1x1024 .f32) (p : Fin 256) (q : Fin 1024) :
    k0_pay2 (F := Ideal) x0 x1 x2 s (ix3 (0 : Fin 1) p q)
      = Cert.Dist.combine (x2 (ix3 (0 : Fin 1) p (0 : Fin 1)))
          (∑ k : Fin 2048, x0 (ix3 (0 : Fin 1) p k) * x1 (ix3 (0 : Fin 1) q k)) (s (ix2 (0 : Fin 1) q)) := by
  unfold k0_pay2
  refine (shapeCast_ab_1ab_apply _ _ (0 : Fin 1) p q).trans ?_
  unfold Cert.Dist.combine Cert.Dist.two Cert.Dist.eps
  have e1 : broadcastTo S256x1024 (shapeCast S256x1 x2 shapeCasts_S1x256x1_S256x1) broadcasts_S256x1_S256x1024 (ix2 p q)
      = x2 (ix3 (0 : Fin 1) p (0 : Fin 1)) :=
    (Cert.Lib.Column.broadcastTo_a1_ab_apply _ _ p q).trans (shapeCast_1ab_ab_apply x2 _ p (0 : Fin 1))
  have e2 : matmul D none
        (truncf (F := Ideal) (φ := .f32) .bf16 (shapeCast S256x2048 x0 shapeCasts_S1x256x2048_S256x2048) bitsLt_bf16_f32)
        (truncf (F := Ideal) (φ := .f32) .bf16 (shapeCast S1024x2048 x1 shapeCasts_S1x1024x2048_S1024x2048) bitsLt_bf16_f32)
        (constant (F := Ideal) S256x1024 .f32 0x00000000#32) (ix2 p q)
      = ∑ k : Fin 2048, x0 (ix3 (0 : Fin 1) p k) * x1 (ix3 (0 : Fin 1) q k) :=
    (product_apply _ _ p q).trans (Finset.sum_congr rfl fun k _ =>
      congrArg₂ (· * ·) (shapeCast_1ab_ab_apply x0 _ p k) (shapeCast_1ab_ab_apply x1 _ q k))
  have e3 : broadcastTo S256x1024 s broadcasts_S1x1024_S256x1024 (ix2 p q) = s (ix2 (0 : Fin 1) q) :=
    broadcastTo_1b_ab_apply s _ p q
  exact congrArg Ideal.sqrt (congrArg₂ max (congrArg₂ (· + ·) (congrArg₂ (· - ·) e1 (congrArg (_ * ·) e2)) e3) rfl)

end Cert.KernelIdeal.Payload

end
-- ==== Proof.Carried.lean ====
/-
  What the carried scratch row and the output block hold after each grid point, over the extended reals.

  The scratch row is written only at the points that open a new block of centroids (every fourth point,
  since the row tile moves fastest), and the three points that follow work on the same block of centroids
  of the same layer. So after ANY point `t` the scratch row holds, at `q`, the squared length of centroid
  `1024 · ((t / 4) % 4) + q` of layer `t / 16`: at an opening point because the body has just computed it
  from the block of centroids, and at a continuing point because the point before left it there and
  `t / 16` and `(t / 4) % 4` have not moved. This is an induction along the points, not an enumeration.

  With that, the output block after point `t` holds, at `(p, q)`, the table's entry for row
  `256 · (t % 4) + p` and centroid `1024 · ((t / 4) % 4) + q` of layer `t / 16`: the precomputed squared
  length of the row, the inner product the body computes from the two blocks, and the scratch row's
  squared centroid length, combined as the table combines them.
-/
import proofs.«114348_j83846351552792_2_alg».proof.Proof.Gen.KernelIdeal.Frame
import proofs.«114348_j83846351552792_2_alg».proof.Proof.Spec
import proofs.«114348_j83846351552792_2_alg».proof.Proof.Pieces
import proofs.«114348_j83846351552792_2_alg».proof.Proof.Payload
import proofs.«114348_j83846351552792_2_alg».proof.Proof.Blocks

noncomputable section

namespace Cert.KernelIdeal.Carried

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The row of squared lengths of the block of centroids at point `t`, read at `q`. -/
theorem fresh_row_apply (c : Dev nD) (t : Fin cfg0.N) (q : Fin 1024) (l : Fin 8) (j : Fin 4096)
    (hl : l.val = t.val / 16) (hj : j.val = 1024 * (t.val / 4 % 4) + q.val) :
    k0_pay1 (F := Ideal) (iblk m c 1 t) (ix2 (0 : Fin 1) q)
      = Cert.Dist.cenSq (m ((c : Thread nD τ).loc main_arg1)) l j := by
  refine (Cert.KernelIdeal.Payload.scratch_row_apply (iblk m c 1 t) q).trans ?_
  unfold Cert.Dist.cenSq
  refine Finset.sum_congr rfl fun k _ => ?_
  rw [Cert.KernelIdeal.Blocks.cen_block_apply m c t q k l j hl hj]

/-- After a point that opens a new block of centroids, the scratch row holds that block's squared lengths. -/
theorem scratch_at_opening (c : Dev nD) (t : Fin cfg0.N) (h0 : t.val % 4 = 0) (q : Fin 1024) (l : Fin 8) (j : Fin 4096)
    (hl : l.val = t.val / 16) (hj : j.val = 1024 * (t.val / 4 % 4) + q.val) :
    (outsAt0 m c t.val t.isLt).2 (ix2 (0 : Fin 1) q) = Cert.Dist.cenSq (m ((c : Thread nD τ).loc main_arg1)) l j := by
  rw [outsAt0_A m c t h0]
  dsimp only
  rw [Cert.KernelIdeal.Pieces.scratch_opened]
  exact fresh_row_apply m c t q l j hl hj

/-- After ANY point the scratch row holds the squared lengths of the centroids of that point's tile. -/
theorem scratch_after (c : Dev nD) : ∀ (n : ℕ) (h : n < cfg0.N) (q : Fin 1024) (l : Fin 8) (j : Fin 4096),
    l.val = n / 16 → j.val = 1024 * (n / 4 % 4) + q.val →
    (outsAt0 m c n h).2 (ix2 (0 : Fin 1) q) = Cert.Dist.cenSq (m ((c : Thread nD τ).loc main_arg1)) l j
  | 0, h, q, l, j, hl, hj => scratch_at_opening m c ⟨0, h⟩ rfl q l j hl hj
  | n + 1, h, q, l, j, hl, hj => by
    by_cases h0 : (n + 1) % 4 = 0
    · exact scratch_at_opening m c ⟨n + 1, h⟩ h0 q l j hl hj
    · rw [outsAt0_B m c ⟨n + 1, h⟩ h0]
      dsimp only
      unfold sout0_B_0
      exact scratch_after c n (Nat.lt_of_succ_lt h) q l j (by omega) (by omega)

/-- The body's value at `(p, q)` on three blocks that read row `(l, n)` of `X`, centroid `(l, j)` of `C` and
    the squared length of that row, with a scratch row that holds the squared length of that centroid: the
    table's entry. -/
theorem body_entry_of (x0 : FVec Ideal S1x256x2048 .f32) (x1 : FVec Ideal S1x1024x2048 .f32) (x2 : FVec Ideal S1x256x1 .f32)
    (s : FVec Ideal S1x1024 .f32) (X : Cert.Dist.SX.Idx → EReal) (C : Cert.Dist.SC.Idx → EReal)
    (p : Fin 256) (q : Fin 1024) (l : Fin 8) (n : Fin 1024) (j : Fin 4096)
    (h0 : ∀ k : Fin 2048, x0 (ix3 (0 : Fin 1) p k) = X (ix3 l n k))
    (h1 : ∀ k : Fin 2048, x1 (ix3 (0 : Fin 1) q k) = C (ix3 l j k))
    (h2 : x2 (ix3 (0 : Fin 1) p (0 : Fin 1)) = Cert.Dist.rowSq X l n)
    (hs : s (ix2 (0 : Fin 1) q) = Cert.Dist.cenSq C l j) :
    k0_pay2 (F := Ideal) x0 x1 x2 s (ix3 (0 : Fin 1) p q) = Cert.Dist.entry X C l n j := by
  refine (Cert.KernelIdeal.Payload.out_block_apply x0 x1 x2 s p q).trans ?_
  unfold Cert.Dist.entry Cert.Dist.inner
  rw [h2, hs]
  refine congrArg (fun b => Cert.Dist.combine _ b _) (Finset.sum_congr rfl fun k _ => ?_)
  rw [h0 k, h1 k]

/-- The same on the three blocks of point `t`. -/
theorem body_entry (c : Dev nD) (t : Fin cfg0.N) (s : FVec Ideal S1x1024 .f32) (p : Fin 256) (q : Fin 1024)
    (l : Fin 8) (n : Fin 1024) (j : Fin 4096)
    (hl : l.val = t.val / 16) (hn : n.val = 256 * (t.val % 4) + p.val) (hj : j.val = 1024 * (t.val / 4 % 4) + q.val)
    (hs : s (ix2 (0 : Fin 1) q) = Cert.Dist.cenSq (m ((c : Thread nD τ).loc main_arg1)) l j) :
    k0_pay2 (F := Ideal) (iblk m c 0 t) (iblk m c 1 t) (iblk m c 2 t) s (ix3 (0 : Fin 1) p q)
      = Cert.Dist.entry (m ((c : Thread nD τ).loc main_arg0)) (m ((c : Thread nD τ).loc main_arg1)) l n j :=
  body_entry_of (iblk m c 0 t) (iblk m c 1 t) (iblk m c 2 t) s _ _ p q l n j
    (fun k => Cert.KernelIdeal.Blocks.row_block_apply m c t p k l n hl hn)
    (fun k => Cert.KernelIdeal.Blocks.cen_block_apply m c t q k l j hl hj)
    ((Cert.KernelIdeal.Blocks.column_block_apply m c t p l n hl hn).trans (Cert.KernelIdeal.Blocks.column_apply m c l n))
    hs

/-- After point `t` the output block holds, at `(p, q)`, the table's entry for the row and centroid that
    `(p, q)` are in the point's tiles. -/
theorem out_after (c : Dev nD) (t : Fin cfg0.N) (p : Fin 256) (q : Fin 1024) (l : Fin 8) (n : Fin 1024) (j : Fin 4096)
    (hl : l.val = t.val / 16) (hn : n.val = 256 * (t.val % 4) + p.val) (hj : j.val = 1024 * (t.val / 4 % 4) + q.val) :
    (outsAt0 m c t.val t.isLt).1 (ix3 (0 : Fin 1) p q)
      = Cert.Dist.entry (m ((c : Thread nD τ).loc main_arg0)) (m ((c : Thread nD τ).loc main_arg1)) l n j := by
  have hN : t.val < 128 := lt_of_lt_of_eq t.isLt (show cfg0.N = 128 from N_0)
  by_cases h0 : t.val % 4 = 0
  · rw [outsAt0_A m c t h0]
    dsimp only
    rw [Cert.KernelIdeal.Pieces.out_opened]
    exact body_entry m c t _ p q l n j hl hn hj (fresh_row_apply m c t q l j hl hj)
  · rw [outsAt0_B m c t h0]
    dsimp only
    rw [Cert.KernelIdeal.Pieces.out_continued]
    refine body_entry m c t _ p q l n j hl hn hj ?_
    exact scratch_after m c (t.val - 1) _ q l j (by omega) (by omega)

end Cert.KernelIdeal.Carried

end
-- ==== Proof.Table.lean ====
/-
  From the blocks to the whole table.

  Every point writes its output block back, to rows `256 · (t % 4) …` and columns `1024 · ((t / 4) % 4) …`
  of layer `t / 16`. What it writes back is the table restricted to that block, and the 128 blocks tile the
  `8 × 1024 × 4096` array — entry `(l, n, j)` lies in the block of point `16·l + 4·(j / 1024) + n / 256` — so
  after the run the result array is the table, and the two argument arrays are as they were.
-/
import proofs.«114348_j83846351552792_2_alg».proof.Proof.Gen.KernelIdeal.Value
import proofs.«114348_j83846351552792_2_alg».proof.Proof.Spec
import proofs.«114348_j83846351552792_2_alg».proof.Proof.Blocks
import proofs.«114348_j83846351552792_2_alg».proof.Proof.Carried

noncomputable section

namespace Cert.KernelIdeal.Table

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The table of the two argument arrays as launched. -/
abbrev table (c : Dev nD) : S8x1024x4096.Idx → EReal :=
  Cert.Dist.dist (m ((c : Thread nD τ).loc main_arg0)) (m ((c : Thread nD τ).loc main_arg1))

/-- The output block at point `t`, entry by entry, is the table read through the block. -/
theorem block_entries (c : Dev nD) (t : Fin cfg0.N) (y : S1x256x1024.Idx) :
    (outsAt0 m c t.val t.isLt).1 y = table m c (((cfg0.win 3).blk t).view.emb y) := by
  have hN : t.val < 128 := lt_of_lt_of_eq t.isLt (show cfg0.N = 128 from N_0)
  obtain ⟨u, p, q, rfl⟩ : ∃ (u : Fin 1) (p : Fin 256) (q : Fin 1024), y = ix3 u p q := ⟨y 0, y 1, y 2, eq_ix3 y⟩
  obtain rfl : u = 0 := Subsingleton.elim _ _
  have hp : p.val < 256 := p.isLt
  have hq : q.val < 1024 := q.isLt
  obtain ⟨-, -, -, -, -, -, -, -, -, e0, e1, e2⟩ := Cert.KernelIdeal.Blocks.positions t
  have hemb : ((cfg0.win 3).blk t).view.emb (ix3 (0 : Fin 1) p q)
      = ix3 (⟨t.val / 16, by omega⟩ : Fin 8) (⟨256 * (t.val % 4) + p.val, by omega⟩ : Fin 1024)
          (⟨1024 * (t.val / 4 % 4) + q.val, by omega⟩ : Fin 4096) := by
    funext a; apply Fin.ext
    match a with
    | ⟨0, _⟩ => show win0_3.index t (0 : Fin 3) * 1 + 1 * 0 = t.val / 16; omega
    | ⟨1, _⟩ => show win0_3.index t (1 : Fin 3) * 256 + 1 * p.val = 256 * (t.val % 4) + p.val; omega
    | ⟨2, _⟩ => show win0_3.index t (2 : Fin 3) * 1024 + 1 * q.val = 1024 * (t.val / 4 % 4) + q.val; omega
  rw [hemb]
  exact Cert.KernelIdeal.Carried.out_after m c t p q _ _ _ rfl rfl rfl

/-- What point `t` writes back is the table read through its block. -/
theorem flushed_is_table (c : Dev nD) (t : Fin cfg0.N) :
    (dats m 0 c).flushed 3 t = ((cfg0.win 3).blk t).view.read (Elt Ideal) (table m c) := by
  rw [Cert.KernelIdeal.Value.flushed3]
  funext y
  exact block_entries m c t y

/-- An entry of the array is in point `t`'s block iff each of its coordinates is in the block's range. -/
theorem mem_block (t : Fin cfg0.N) (i : S8x1024x4096.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v3).slice (win0_3.rect t)).set ↔ _
  rw [View.set_slice_whole, Rect.mem_set_unit]
  exact Iff.rfl

/-- Every entry of the array lies in the block of some point, and every point writes its block back. -/
theorem covered (i : S8x1024x4096.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 4096 := (i 2).isLt
  have hN : cfg0.N = 128 := N_0
  have hT : 16 * (i 0).val + 4 * ((i 2).val / 1024) + (i 1).val / 256 < cfg0.N := by rw [hN]; omega
  obtain ⟨t, ht⟩ : ∃ t : Fin cfg0.N, t.val = 16 * (i 0).val + 4 * ((i 2).val / 1024) + (i 1).val / 256 := ⟨⟨_, hT⟩, rfl⟩
  refine ⟨t, flush0_3 t, ?_⟩
  rw [mem_block]
  obtain ⟨-, -, -, -, -, -, -, -, -, e0, e1, e2⟩ := Cert.KernelIdeal.Blocks.positions t
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 1024 ≤ (i 2).val ∧ (i 2).val < win0_3.index t (2 : Fin 3) * 1024 + 1024
    omega

/-- After the run the result array is the table. -/
theorem final_is_table (c : Dev nD) : (dats m 0 c).arrAt 3 cfg0.N = table m c :=
  (dats m 0 c).arrAt_eq_of_cover 3 (table m c) (fun t _ => flushed_is_table m c t) covered

/-- Every weakly fair execution of the idealized kernel's program ends with the result array at the table
    of the launch contents of the two arguments, and the arguments unchanged. -/
theorem run : θ_run defs (onTc (τ := τ) (main (F := Ideal))) ⟨m, fun _ => 0, ρ⟩ fun r => ∀ c : Dev nD,
      r.2.mem ((c : Thread nD τ).loc main_v3) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_is_table m c), (h c).2⟩)
    (Cert.KernelIdeal.Value.run_blocks m ρ)

end Cert.KernelIdeal.Table

end
-- ==== Proof.lean ====
/-
  The certificate: a tiled kernel for the table of Euclidean distances against its plain reference.

  Both programs compute, for every layer `l`, row `n` and centroid `q`,

      sqrt (max (‖x_{l,n}‖² − 2 · ⟨x_{l,n}, c_{l,q}⟩ + ‖c_{l,q}‖², ε)).

  The reference does it in one pass over whole arrays. The kernel precomputes the rows' squared lengths on
  the host, walks a grid of 8 layers × 4 tiles of centroids × 4 tiles of rows, computes the squared lengths
  of a tile of centroids once per tile and carries them in a scratch row across the four row tiles that
  follow, multiplies the two tiles on the matrix unit (after narrowing them, which is the identity over
  the extended reals), and combines the three numbers exactly as the reference does, with the same two
  float literals. Over the extended reals the only differences are a different tiling, sums that start
  from the float zero or from nothing, and the matrix unit's product against the host's contraction —
  none of which changes a value, and none of which needs the inputs to be finite.

  The three frames: the two kernels' are the generated frame proofs; the reference's is its generated run
  with the result dropped. The kernel and its idealization are the same text (nothing was rewritten), so
  that conjunct is `True`. The value conjunct sets the kernel's run, read as the table (module `Table`),
  beside the reference's run, read as the table (module `RefDist`), on arguments that agree.
-/
import proofs.«114348_j83846351552792_2_alg».proof.Defs
import proofs.«114348_j83846351552792_2_alg».proof.Proof.Gen.Kernel
import proofs.«114348_j83846351552792_2_alg».proof.Proof.Gen.Kernel.Skeleton
import proofs.«114348_j83846351552792_2_alg».proof.Proof.Gen.Kernel.Launch
import proofs.«114348_j83846351552792_2_alg».proof.Proof.Gen.Kernel.Points
import proofs.«114348_j83846351552792_2_alg».proof.Proof.Gen.Kernel.Frame
import proofs.«114348_j83846351552792_2_alg».proof.Proof.Gen.KernelIdeal
import proofs.«114348_j83846351552792_2_alg».proof.Proof.Gen.KernelIdeal.Skeleton
import proofs.«114348_j83846351552792_2_alg».proof.Proof.Gen.KernelIdeal.Launch
import proofs.«114348_j83846351552792_2_alg».proof.Proof.Gen.KernelIdeal.Points
import proofs.«114348_j83846351552792_2_alg».proof.Proof.Gen.KernelIdeal.Frame
import proofs.«114348_j83846351552792_2_alg».proof.Proof.Gen.ReferenceIdeal
import proofs.«114348_j83846351552792_2_alg».proof.Proof.Gen.Pre_finite_inputs
import proofs.«114348_j83846351552792_2_alg».proof.Proof.Gen.KernelIdeal.Value
import proofs.«114348_j83846351552792_2_alg».proof.Proof.Gen.ReferenceIdeal.Run
import proofs.«114348_j83846351552792_2_alg».proof.Proof.Gen.ReferenceIdeal.Read
import proofs.«114348_j83846351552792_2_alg».proof.Proof.RefDist
import proofs.«114348_j83846351552792_2_alg».proof.Proof.Table
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments, the idealized kernel ends with its result array at the
    table of distances of its arguments, and the idealized reference ends with its result at the table of
    distances of its arguments: the same table. -/
theorem algebraic : Cert.algebraic_KernelIdeal_ReferenceIdeal := by
  intro m ρ m' ρ' _ hagree
  refine ⟨fun c => Cert.KernelIdeal.Table.table m c, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefDist.result_is_dist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
